-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000 : Shape := ⟨1, ![100000]⟩
abbrev S2x1600000 : Shape := ⟨2, ![2, 1600000]⟩
abbrev S1600000 : Shape := ⟨1, ![1600000]⟩
abbrev S1600000x16 : Shape := ⟨2, ![1600000, 16]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S1600000x16 : S_.BroadcastsInDim S1600000x16 (![] : Fin 0 → Fin S1600000x16.rank)
  reducesTo_S1600000x16_S_d0_1 : S1600000x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S100000 32) (main_arg2 : IVec S2x1600000 32) (main_arg3 : FVec F S1600000 .f32) (main_arg4 : FVec F S1600000x16 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1600000x16 .f32 := Host.absf main_arg4
  let main_cst_2 : FVec F S_ .f32 := constant S_ .f32 0x7F800000#32
  let main_v10 : FVec F S1600000x16 .f32 := broadcastInDim S1600000x16 ![] bcast_S_S1600000x16 main_cst_2
  let main_v11 : IVec S1600000x16 1 := cmpf .olt main_v9 main_v10
  let main_c_3 : IVec S_ 1 := constantI S_ 1 1#1
  let main_v12 : IVec S_ 1 := (fun x v => Host.reduce IntOp.andi x v reducesTo_S1600000x16_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S100000 : Shape := ⟨1, ![100000]⟩
abbrev S2x1600000 : Shape := ⟨2, ![2, 1600000]⟩
abbrev S1600000 : Shape := ⟨1, ![1600000]⟩
abbrev S1600000x16 : Shape := ⟨2, ![1600000, 16]⟩
abbrev S128x128 : Shape := ⟨2, ![128, 128]⟩
abbrev S128 : Shape := ⟨1, ![128]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 87
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S2x1600000, .i32⟩
  | .hbm, ⟨3, _⟩ => ⟨S1600000, .f32⟩
  | .hbm, ⟨4, _⟩ => ⟨S1600000x16, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S_, .f32⟩
  | .hbm, ⟨19, _⟩ => ⟨S1700000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S1700000x1, .f32⟩
  | .hbm, ⟨79, _⟩ => ⟨S1700000x128, .f32⟩
  | .hbm, ⟨80, _⟩ => ⟨S1700000x128, .f32⟩
  | .hbm, ⟨81, _⟩ => ⟨S_, .f32⟩
  | .hbm, ⟨82, _⟩ => ⟨S100000x128, .f32⟩
  | .hbm, ⟨83, _⟩ => ⟨S1700000x1, .i32⟩
  | .hbm, ⟨84, _⟩ => ⟨S100000x128, .f32⟩
  | .hbm, ⟨85, _⟩ => ⟨S1x128, .f32⟩
  | .hbm, ⟨86, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S100000 : Shape := ⟨1, ![100000]⟩
abbrev S2x1600000 : Shape := ⟨2, ![2, 1600000]⟩
abbrev S1600000 : Shape := ⟨1, ![1600000]⟩
abbrev S1600000x16 : Shape := ⟨2, ![1600000, 16]⟩
abbrev S128x128 : Shape := ⟨2, ![128, 128]⟩
abbrev S128 : Shape := ⟨1, ![128]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S2x1600000, .i32⟩
  | .hbm, ⟨3, _⟩ => ⟨S1600000, .f32⟩
  | .hbm, ⟨4, _⟩ => ⟨S1600000x16, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S_, .f32⟩
  | .hbm, ⟨19, _⟩ => ⟨S1700000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S100000, .f32⟩
  | .hbm, ⟨29, _⟩ => ⟨S100000, .f32⟩
  | .hbm, ⟨30, _⟩ => ⟨S100000x128, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000, .f32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x128, .f32⟩
  | .hbm, ⟨101, _⟩ => ⟨S1700000x1, .f32⟩
  | .hbm, ⟨102, _⟩ => ⟨S1700000x128, .f32⟩
  | .hbm, ⟨103, _⟩ => ⟨S1700000x128, .f32⟩
  | .hbm, ⟨104, _⟩ => ⟨S_, .f32⟩
  | .hbm, ⟨105, _⟩ => ⟨S100000x128, .f32⟩
  | .hbm, ⟨106, _⟩ => ⟨S1700000x1, .i32⟩
  | .hbm, ⟨107, _⟩ => ⟨S100000x128, .f32⟩
  | .hbm, ⟨108, _⟩ => ⟨S1x128, .f32⟩
  | .hbm, ⟨109, _⟩ => ⟨S100000x128, .f32⟩
  | .hbm, ⟨110, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call0_cst : Ref sig .tc := ⟨.hbm, 69, rfl⟩
abbrev main_call0_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_c_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel's run with its result named.

  The program is seven segments: host operations, the first product, host operations, the bias and clamp, the second
  product, host operations, the last bias. The contents of every buffer at each segment boundary are a fold from the
  launch memory: a stretch of host operations applies them in order, and a kernel region replaces its three arrays by
  what its write-backs leave. Every weakly fair execution terminates with every unscoped buffer at the last boundary's
  contents; in particular the result array is the last boundary's contents at the result buffer, and the arguments are
  as launched.
-/
import proofs.«179186_j20684562498293_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer of every core at the last
    segment boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The result array ends at the last boundary's contents at the result buffer, and the arguments end as launched. -/
theorem run_result : θ_run defs (onTc (τ := τ) (main (F := F))) ⟨m, fun _ => 0, ρ⟩ (fun r => ∀ c : Dev nD,
      r.2.mem ((c.tc : Thread nD τ).loc main_v63) = W7 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v63 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c)⟩)
    (run_all m ρ)

end Cert.KernelIdeal.Run

end
-- ==== Proof.KernelHost.lean ====
/-
  The host operations between the kernel regions, read from any contents of the buffers.

  The first stretch builds, from the edge list, the two node lists of the messages (the edges and then one self loop per
  node) and each message's scale, the product of its two ends' inverse square-root degrees; it writes no argument. The
  second and the third stretch are one aggregation each: every message is its source node's row of the features times
  the message's scale, and every node adds up the messages that go to it; then the bias vector is re-shaped to a row.
  They read the node lists and the scales the first stretch left and write none of them.
-/
import proofs.«179186_j20684562498293_1_alg».proof.Proof.Gen.KernelIdeal.Launch
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The first row of the edge list, then the self loops 0 … 99999: the node each message comes from. -/
def srcOf (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The second row of the edge list, then the self loops: the node each message goes to. -/
def dstOf (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A negative node number counted from the end: 100000 is added to it. -/
def wrap (x : (⟨S1700000, .i32⟩ : BufTy).Contents (Elt F)) : (⟨S1700000, .i32⟩ : BufTy).Contents (Elt F) :=
  select (cmpi .slt x (broadcastInDim S1700000 ![] bcast_S_S1700000 (constantI S_ 32 0#32))) (addi x (broadcastInDim S1700000 ![] bcast_S_S1700000 (constantI S_ 32 100000#32))) x

/-- One over the square root of each node's degree, the degree being the number of messages that go to the node. -/
def invSqrtDeg (dst : (⟨S1700000, .i32⟩ : BufTy).Contents (Elt F)) : (⟨S100000, .f32⟩ : BufTy).Contents (Elt F) :=
  Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (wrap dst)) (broadcastInDim S1700000 ![] bcast_S_S1700000 (constant S_ .f32 0x3F800000#32)))

/-- Each message's scale: the two ends' inverse square-root degrees multiplied. -/
def normOf (src dst : (⟨S1700000, .i32⟩ : BufTy).Contents (Elt F)) : (⟨S1700000, .f32⟩ : BufTy).Contents (Elt F) :=
  mulf (Host.gather gather_S100000_S1700000x1_S1700000_n_0_n_n_0_1_1 (invSqrtDeg dst) (broadcastInDim S1700000x1 ![0] bcast_S1700000_S1700000x1_0 (wrap src))) (Host.gather gather_S100000_S1700000x1_S1700000_n_0_n_n_0_1_1 (invSqrtDeg dst) (broadcastInDim S1700000x1 ![0] bcast_S1700000_S1700000x1_0 (wrap dst)))

/-- The aggregation of one layer: each message is its source node's row of H times the message's scale, and each node
    adds up the messages that go to it. -/
def aggregate (src dst : (⟨S1700000, .i32⟩ : BufTy).Contents (Elt F)) (nrm : (⟨S1700000, .f32⟩ : BufTy).Contents (Elt F)) (H : (⟨S100000x128, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 dst) (mulf (Host.gather gather_S100000x128_S1700000x1_S1700000x128_1_0_n_n_0_1_1128 H (broadcastInDim S1700000x1 ![0] bcast_S1700000_S1700000x1_0 (wrap src))) (broadcastInDim S1700000x128 ![0, 1] bcast_S1700000x1_S1700000x128_0_1 (broadcastInDim S1700000x1 ![0] bcast_S1700000_S1700000x1_0 nrm)))

variable (W : Valuation τ sig (Elt F))

/-! ## The first stretch -/

set_option maxHeartbeats 4000000 in
theorem first_src : StableHlo.after hostOps0 W (Proc.devRef .tc main_v3) = srcOf (F := F) (W (Proc.devRef .tc main_arg2)) := by
  after_results_simp <;> rfl
set_option maxHeartbeats 4000000 in
theorem first_dst : StableHlo.after hostOps0 W (Proc.devRef .tc main_v6) = dstOf (F := F) (W (Proc.devRef .tc main_arg2)) := by
  after_results_simp <;> rfl
set_option maxHeartbeats 4000000 in
theorem first_norm : StableHlo.after hostOps0 W (Proc.devRef .tc main_v31) = normOf (F := F) (srcOf (W (Proc.devRef .tc main_arg2))) (dstOf (W (Proc.devRef .tc main_arg2))) := by
  after_results_simp <;> rfl
set_option maxHeartbeats 4000000 in
theorem first_keeps_main_arg0 : StableHlo.after hostOps0 W (Proc.devRef .tc main_arg0) = W (Proc.devRef .tc main_arg0) := by
  after_results_simp <;> rfl
set_option maxHeartbeats 4000000 in
theorem first_keeps_main_arg5 : StableHlo.after hostOps0 W (Proc.devRef .tc main_arg5) = W (Proc.devRef .tc main_arg5) := by
  after_results_simp <;> rfl
set_option maxHeartbeats 4000000 in
theorem first_keeps_main_arg6 : StableHlo.after hostOps0 W (Proc.devRef .tc main_arg6) = W (Proc.devRef .tc main_arg6) := by
  after_results_simp <;> rfl
set_option maxHeartbeats 4000000 in
theorem first_keeps_main_arg7 : StableHlo.after hostOps0 W (Proc.devRef .tc main_arg7) = W (Proc.devRef .tc main_arg7) := by
  after_results_simp <;> rfl
set_option maxHeartbeats 4000000 in
theorem first_keeps_main_arg8 : StableHlo.after hostOps0 W (Proc.devRef .tc main_arg8) = W (Proc.devRef .tc main_arg8) := by
  after_results_simp <;> rfl

/-! ## The second stretch -/

theorem second_agg : StableHlo.after hostOps1 W (Proc.devRef .tc main_v45)
    = aggregate (F := F) (W (Proc.devRef .tc main_v3)) (W (Proc.devRef .tc main_v6)) (W (Proc.devRef .tc main_v31)) (W (Proc.devRef .tc main_v32)) := by
  after_results_simp <;> rfl
theorem second_bias : StableHlo.after hostOps1 W (Proc.devRef .tc main_v46)
    = (shapeCast S1x128 (W (Proc.devRef .tc main_arg6)) shapeCasts_S128_S1x128 : (⟨S1x128, .f32⟩ : BufTy).Contents (Elt F)) := by
  after_results_simp <;> rfl
theorem second_keeps_main_v3 : StableHlo.after hostOps1 W (Proc.devRef .tc main_v3) = W (Proc.devRef .tc main_v3) := by
  after_results_simp <;> rfl
theorem second_keeps_main_v6 : StableHlo.after hostOps1 W (Proc.devRef .tc main_v6) = W (Proc.devRef .tc main_v6) := by
  after_results_simp <;> rfl
theorem second_keeps_main_v31 : StableHlo.after hostOps1 W (Proc.devRef .tc main_v31) = W (Proc.devRef .tc main_v31) := by
  after_results_simp <;> rfl
theorem second_keeps_main_arg7 : StableHlo.after hostOps1 W (Proc.devRef .tc main_arg7) = W (Proc.devRef .tc main_arg7) := by
  after_results_simp <;> rfl
theorem second_keeps_main_arg8 : StableHlo.after hostOps1 W (Proc.devRef .tc main_arg8) = W (Proc.devRef .tc main_arg8) := by
  after_results_simp <;> rfl

/-! ## The third stretch -/

theorem third_agg : StableHlo.after hostOps3 W (Proc.devRef .tc main_v61)
    = aggregate (F := F) (W (Proc.devRef .tc main_v3)) (W (Proc.devRef .tc main_v6)) (W (Proc.devRef .tc main_v31)) (W (Proc.devRef .tc main_v48)) := by
  after_results_simp <;> rfl
theorem third_bias : StableHlo.after hostOps3 W (Proc.devRef .tc main_v62)
    = (shapeCast S1x128 (W (Proc.devRef .tc main_arg8)) shapeCasts_S128_S1x128 : (⟨S1x128, .f32⟩ : BufTy).Contents (Elt F)) := by
  after_results_simp <;> rfl

end Cert.KernelIdeal.Host

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«179186_j20684562498293_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowBlocks.lean ====
/-
  Blocks of rows of a matrix product. An entry of a product depends on one row of the left operand, so a block of
  consecutive rows of A, multiplied by B, is the same block of rows of the product of A with B. Stated here with the
  two indices as variables: the index y inside the block and the index i of the whole array it sits at.
  Nothing here mentions a program.
-/
import Idealize.ShloMosaic.Lib.ValueIdx
import proofs.«179186_j20684562498293_1_alg».proof.Proof.LibMatProd

open scoped BigOperators

noncomputable section

namespace Cert.Lib.RowBlocks

open Idealize.ShloMosaic Idealize.ShloMosaic.ValueIdx Cert.Lib.MatProd

/-- The zero offset of a rank-2 rectangle, as a constant function. -/
theorem zero_offset2 : (![0, 0] : Fin 2 → Nat) = fun _ => 0 := funext fun a => by fin_cases a <;> rfl

/-- If row (y 0) of A' is row (i 0) of A, and y and i have the same column, the product of A' with B at y is the
    product of A with B at i. -/
theorem matProd_rows {m m' k n : Nat} (A : (⟨2, ![m, k]⟩ : Shape).Idx → EReal) (A' : (⟨2, ![m', k]⟩ : Shape).Idx → EReal)
    (B : (⟨2, ![k, n]⟩ : Shape).Idx → EReal) (y : (⟨2, ![m', n]⟩ : Shape).Idx) (i : (⟨2, ![m, n]⟩ : Shape).Idx)
    (hA : ∀ c : Fin k, A' (ix2 (⟨(y 0).val, idx2_lt0 y⟩ : Fin m') c) = A (ix2 (⟨(i 0).val, idx2_lt0 i⟩ : Fin m) c))
    (hcol : (y 1).val = (i 1).val) :
    matProd A' B y = matProd A B i := by
  obtain ⟨p, q, rfl⟩ : ∃ (p : Fin m') (q : Fin n), y = ix2 p q := ⟨y 0, y 1, eq_ix2 y⟩
  obtain ⟨r, s, rfl⟩ : ∃ (r : Fin m) (s : Fin n), i = ix2 r s := ⟨i 0, i 1, eq_ix2 i⟩
  have hqs : q = s := Fin.ext hcol
  subst hqs
  exact matProd_block A A' B B p q r q hA (fun _ => rfl)

end Cert.Lib.RowBlocks

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«179186_j20684562498293_1_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«179186_j20684562498293_1_alg».proof.Proof.LibBlockReads
import proofs.«179186_j20684562498293_1_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.LibDenseLayers.lean ====
/-
  Dense layers on the extended reals, as functions of whole arrays.

  A layer takes an r×k array X, a k×n array W and a vector b of n entries to the r×n array whose entry (p, q) is the
  sum over c of X(p, c) · W(c, q), plus b(q) — `affine` — or the maximum of that and zero — `dense`. An entry of a
  layer's result depends on one row of X, one column of W and one entry of b, so a layer applied to some rows of X
  (and to some columns of W with the matching entries of b) gives those rows (and columns) of the layer applied to
  the whole arrays: `dense_rows`, `affine_rows`, `affine_block`, with the row and column maps as variables. The two
  spellings of the bias are read once — a kernel body's (the vector re-shaped to a 1×n row, broadcast down the rows,
  added: `body_bias`, and with the maximum with a splat of the zero word: `body_bias_max`) and a host program's (the
  vector broadcast into a 1×n row and that into the r×n array, added: `host_bias`; with the maximum it is
  `Cert.Lib.BiasRelu.host_eq`) — and `max_biasAdd` takes the maximum of an already-read bias with the zero splat
  (the form a rewriting pass meets, since it reads the inner sum first). Sums and maxima on the extended reals need no
  finiteness here: nothing is distributed or cancelled. Nothing here mentions a program.
-/
import Idealize.ShloMosaic.PureOps.Ideal.Laws
import Idealize.ShloMosaic.Lib.ValueIdx
import Idealize.ShloMosaic.Lib.Pipeline.Value
import proofs.«179186_j20684562498293_1_alg».proof.Proof.LibMatProd
import proofs.«179186_j20684562498293_1_alg».proof.Proof.LibBiasRelu
import proofs.«179186_j20684562498293_1_alg».proof.Proof.LibRowVector
import proofs.«179186_j20684562498293_1_alg».proof.Proof.LibBlockReads

open scoped BigOperators

noncomputable section

namespace Cert.Layers

open Idealize.ShloMosaic Idealize.ShloMosaic.ValueIdx Cert.Lib.MatProd Cert.Lib.BiasRelu Cert.Lib.RowVector

variable {r r' k n n' : Nat}

/-- Entry (p, q) is X(p, q) + b(0, q). -/
def biasAdd (X : (⟨2, ![r, n]⟩ : Shape).Idx → EReal) (b : (⟨2, ![1, n]⟩ : Shape).Idx → EReal) :
    (⟨2, ![r, n]⟩ : Shape).Idx → EReal :=
  fun i => X i + b (ix2 (0 : Fin 1) (⟨(i 1).val, idx2_lt1 i⟩ : Fin n))

theorem biasAdd_apply (X : (⟨2, ![r, n]⟩ : Shape).Idx → EReal) (b : (⟨2, ![1, n]⟩ : Shape).Idx → EReal)
    (p : Fin r) (q : Fin n) : biasAdd X b (ix2 p q) = X (ix2 p q) + b (ix2 0 q) := rfl

/-- A layer with the maximum: entry (p, q) is max (∑ c, X(p, c) · W(c, q) + b(q)) 0. -/
def dense (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasRelu (matProd X W) (asRow b)

/-- A layer without it: entry (p, q) is ∑ c, X(p, c) · W(c, q) + b(q). -/
def affine (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasAdd (matProd X W) (asRow b)

/-- If row p of X' is row ρ p of X, row p of `dense X' W b` is row ρ p of `dense X W b`. -/
theorem dense_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    dense X' W b (ix2 p q) = dense X W b (ix2 (ρ p) q) :=
  biasRelu_rows _ _ _ p (ρ p) q (matProd_block X X' W W p q (ρ p) q (h p) fun _ => rfl)

/-- The same for a layer without the maximum, a block of columns of W and the matching entries of b taken as well:
    if also column q of W' is column γ q of W and entry q of b' is entry γ q of b, entry (p, q) of
    `affine X' W' b'` is entry (ρ p, γ q) of `affine X W b`. -/
theorem affine_block (X : (⟨2, ![r, k]⟩ : Shape).Idx → EReal) (X' : (⟨2, ![r', k]⟩ : Shape).Idx → EReal)
    (W : (⟨2, ![k, n]⟩ : Shape).Idx → EReal) (W' : (⟨2, ![k, n']⟩ : Shape).Idx → EReal)
    (b : (⟨1, ![n]⟩ : Shape).Idx → EReal) (b' : (⟨1, ![n']⟩ : Shape).Idx → EReal)
    (ρ : Fin r' → Fin r) (γ : Fin n' → Fin n)
    (hX : ∀ (p : Fin r') (c : Fin k), X' (ix2 p c) = X (ix2 (ρ p) c))
    (hW : ∀ (c : Fin k) (q : Fin n'), W' (ix2 c q) = W (ix2 c (γ q)))
    (hb : ∀ q : Fin n', b' (ix1 q) = b (ix1 (γ q))) (p : Fin r') (q : Fin n') :
    affine X' W' b' (ix2 p q) = affine X W b (ix2 (ρ p) (γ q)) := by
  unfold affine
  rw [biasAdd_apply, biasAdd_apply, asRow_apply, asRow_apply, hb q,
    matProd_block X X' W W' p q (ρ p) (γ q) (hX p) fun c => hW c q]

theorem affine_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    affine X' W b (ix2 p q) = affine X W b (ix2 (ρ p) q) :=
  affine_block X X' W W b b ρ id h (fun _ _ => rfl) (fun _ => rfl) p q

/-! ## The two spellings of a layer's bias and maximum -/

/-- The kernel body's bias: the vector re-shaped to a 1×n row and broadcast down the rows, then added. -/
theorem body_bias (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    addf M (broadcastTo ⟨2, ![r, n]⟩ (shapeCast ⟨2, ![1, n]⟩ v h) hb) = biasAdd M (asRow v) := by
  funext i
  obtain ⟨p, q, rfl⟩ : ∃ (p : Fin r) (q : Fin n), i = ix2 p q := ⟨i 0, i 1, eq_ix2 i⟩
  rw [addf_apply, Cert.Lib.BlockReads.broadcast_row_apply, shapeCast_eq_asRow]
  rfl

/-- The kernel body's bias and maximum with a splat of the zero word. -/
theorem body_bias_max (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    maximumf (addf M (broadcastTo ⟨2, ![r, n]⟩ (shapeCast ⟨2, ![1, n]⟩ v h) hb))
      (broadcast ⟨2, ![r, n]⟩ (Scalar.ofBits (F := Ideal) .f32 0x00000000#32)) = biasRelu M (asRow v) := by
  funext i
  obtain ⟨p, q, rfl⟩ : ∃ (p : Fin r) (q : Fin n), i = ix2 p q := ⟨i 0, i 1, eq_ix2 i⟩
  rw [maximumf_apply, addf_apply, Cert.Lib.BlockReads.broadcast_row_apply, shapeCast_eq_asRow]
  rfl

/-- The reference's bias: the vector broadcast into a 1×n row and that into the r×n array, then added. -/
theorem host_bias (M : FVec Ideal ⟨2, ![r, n]⟩ .f32) (v : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf M (broadcastInDim ⟨2, ![r, n]⟩ ![0, 1] h2 (broadcastInDim ⟨2, ![1, n]⟩ ![1] h1 v)) = biasAdd M (asRow v) := by
  funext i
  obtain ⟨p, q, rfl⟩ : ∃ (p : Fin r) (q : Fin n), i = ix2 p q := ⟨i 0, i 1, eq_ix2 i⟩
  rw [addf_apply, bcastInDim_rows_apply, bcastInDim_eq_asRow]
  rfl

/-- The maximum of a biased matrix with a splat of the zero word is the bias and maximum in one. -/
theorem max_biasAdd (M : (⟨2, ![r, n]⟩ : Shape).Idx → EReal) (b : (⟨2, ![1, n]⟩ : Shape).Idx → EReal) :
    maximumf (F := Ideal) (s := ⟨2, ![r, n]⟩) (φ := .f32) (biasAdd M b)
      (broadcast ⟨2, ![r, n]⟩ (FloatOps.ofBits (F := Ideal) .f32 0x00000000#32)) = biasRelu M b := by
  funext i
  rw [maximumf_apply]
  rfl

end Cert.Layers

end
-- ==== Proof.LibInPlaceBodies.lean ====
/-
  Kernel bodies that re-shape a loaded block in place before using it, read once on the extended reals, and the
  dependence of a biased entry on one entry of the matrix, stated with whole indices.

  A product of two blocks narrowed to a shorter float format and accumulated into zeros is the matrix product of the
  blocks: narrowing a float is the identity on the extended reals. The same holds when the left block is first re-shaped
  to its own shape. A 1×n row re-shaped in place, broadcast down the rows of an r×n block that is itself re-shaped in
  place, and added, is the bias row added to every row. Entry i of a biased (or biased and clamped) matrix depends on
  entry i of the matrix and on the column of i only, so a block whose entry y is entry i of a larger matrix, in the same
  column, gives the larger matrix's biased entry. No finiteness is used: nothing is distributed or cancelled.
  Nothing here mentions a program.
-/
import Idealize.ShloMosaic.PureOps.Ideal.Laws
import Idealize.ShloMosaic.Lib.ValueIdx
import Idealize.ShloMosaic.Lib.Pipeline.Value
import proofs.«179186_j20684562498293_1_alg».proof.Proof.LibBlockReads
import proofs.«179186_j20684562498293_1_alg».proof.Proof.LibMatProd
import proofs.«179186_j20684562498293_1_alg».proof.Proof.LibBiasRelu
import proofs.«179186_j20684562498293_1_alg».proof.Proof.LibDenseLayers

open scoped BigOperators

noncomputable section

namespace Cert.Lib.InPlaceBodies

open Idealize.ShloMosaic Idealize.ShloMosaic.ValueIdx Cert.Lib.MatProd Cert.Lib.BiasRelu Cert.Layers

variable {r r' k n : Nat}

/-- Two blocks narrowed to a shorter float format, multiplied into a zero accumulator: the matrix product of the
    blocks themselves, since narrowing does nothing to an extended real. -/
theorem narrowed_product {ψ φ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (h : ψ.bits < φ.bits)
    (x0 : FVec Ideal ⟨2, ![r, k]⟩ φ) (x1 : FVec Ideal ⟨2, ![k, n]⟩ φ) :
    matmul d prec (truncf ψ x0 h) (truncf ψ x1 h) (constant ⟨2, ![r, n]⟩ .f32 0x00000000#32) = matProd x0 x1 :=
  matmul_zero_eq_matProd d hlc hrc hln hrn hlb hrb prec (truncf ψ x0 h) (truncf ψ x1 h)

/-- The same when the left block is first re-shaped to its own shape. -/
theorem narrowed_product_cast {ψ φ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (h : ψ.bits < φ.bits)
    (hc : (⟨2, ![r, k]⟩ : Shape).ShapeCasts ⟨2, ![r, k]⟩)
    (x0 : FVec Ideal ⟨2, ![r, k]⟩ φ) (x1 : FVec Ideal ⟨2, ![k, n]⟩ φ) :
    matmul d prec (truncf ψ (shapeCast ⟨2, ![r, k]⟩ x0 hc) h) (truncf ψ x1 h) (constant ⟨2, ![r, n]⟩ .f32 0x00000000#32)
      = matProd x0 x1 := by
  rw [shapeCast_self]
  exact narrowed_product d hlc hrc hln hrn hlb hrb prec h x0 x1

/-- A 1×n row re-shaped in place and broadcast down the rows of an r×n block, itself re-shaped in place, then added:
    the bias row added to every row. -/
theorem bias_in_place (x0 : FVec Ideal ⟨2, ![r, n]⟩ .f32) (x2 : FVec Ideal ⟨2, ![1, n]⟩ .f32)
    (h0 : (⟨2, ![r, n]⟩ : Shape).ShapeCasts ⟨2, ![r, n]⟩) (h2 : (⟨2, ![1, n]⟩ : Shape).ShapeCasts ⟨2, ![1, n]⟩)
    (hb : (⟨2, ![1, n]⟩ : Shape).Broadcasts ⟨2, ![r, n]⟩) :
    addf (shapeCast ⟨2, ![r, n]⟩ x0 h0) (broadcastTo ⟨2, ![r, n]⟩ (shapeCast ⟨2, ![1, n]⟩ x2 h2) hb) = biasAdd x0 x2 := by
  funext i
  obtain ⟨p, q, rfl⟩ : ∃ (p : Fin r) (q : Fin n), i = ix2 p q := ⟨i 0, i 1, eq_ix2 i⟩
  rw [addf_apply, shapeCast_self, shapeCast_self, Cert.Lib.BlockReads.broadcast_row_apply]
  rfl

/-- Entry y of a biased block is entry i of the biased matrix when entry y of the block is entry i of the matrix and
    the two indices are in the same column. -/
theorem biasAdd_at (X : (⟨2, ![r, n]⟩ : Shape).Idx → EReal) (X' : (⟨2, ![r', n]⟩ : Shape).Idx → EReal)
    (b : (⟨2, ![1, n]⟩ : Shape).Idx → EReal) (y : (⟨2, ![r', n]⟩ : Shape).Idx) (i : (⟨2, ![r, n]⟩ : Shape).Idx)
    (h : X' y = X i) (hcol : (y 1).val = (i 1).val) : biasAdd X' b y = biasAdd X b i := by
  have e : (⟨(y 1).val, idx2_lt1 y⟩ : Fin n) = ⟨(i 1).val, idx2_lt1 i⟩ := Fin.ext hcol
  show X' y + b (ix2 (0 : Fin 1) (⟨(y 1).val, idx2_lt1 y⟩ : Fin n)) = X i + b (ix2 (0 : Fin 1) (⟨(i 1).val, idx2_lt1 i⟩ : Fin n))
  rw [h, e]

/-- The same for a biased block clamped below at the zero word. -/
theorem biasRelu_at (X : (⟨2, ![r, n]⟩ : Shape).Idx → EReal) (X' : (⟨2, ![r', n]⟩ : Shape).Idx → EReal)
    (b : (⟨2, ![1, n]⟩ : Shape).Idx → EReal) (y : (⟨2, ![r', n]⟩ : Shape).Idx) (i : (⟨2, ![r, n]⟩ : Shape).Idx)
    (h : X' y = X i) (hcol : (y 1).val = (i 1).val) : biasRelu X' b y = biasRelu X b i := by
  have e : (⟨(y 1).val, idx2_lt1 y⟩ : Fin n) = ⟨(i 1).val, idx2_lt1 i⟩ := Fin.ext hcol
  show max (X' y + b (ix2 (0 : Fin 1) (⟨(y 1).val, idx2_lt1 y⟩ : Fin n))) (Ideal.ofBits .f32 0x00000000#32)
     = max (X i + b (ix2 (0 : Fin 1) (⟨(i 1).val, idx2_lt1 i⟩ : Fin n))) (Ideal.ofBits .f32 0x00000000#32)
  rw [h, e]

end Cert.Lib.InPlaceBodies

end
-- ==== Proof.KernelRegions.lean ====
/-
  The four kernel regions, each as one function of the arrays it finds.

  Every region walks the 100000 rows in twenty blocks of 5000; at a point its first window holds that block of rows of
  its first array, its second window the whole of its second array (the 128×128 weights, or the 1×128 bias row), and it
  writes the block of rows of its output back. A block of rows of X times W is the same rows of X·W, and a bias row
  added to (and the maximum with zero taken of) a block of rows is the same rows of the biased array; the twenty blocks
  tile the array. So after the first and the third region the output array is the matrix product of the two input
  arrays, after the second it is the first input plus the bias row clamped below at zero, and after the fourth the first
  input plus the bias row. The contents the region finds are a parameter: the run supplies them per region.
-/
import proofs.«179186_j20684562498293_1_alg».proof.Proof.Gen.KernelIdeal.Frame
import Idealize.ShloMosaic.Lib.Pipeline.Value
import Idealize.ShloMosaic.Lib.ValueIdx
import proofs.«179186_j20684562498293_1_alg».proof.Proof.LibMatProd
import proofs.«179186_j20684562498293_1_alg».proof.Proof.LibRowBlocks
import proofs.«179186_j20684562498293_1_alg».proof.Proof.LibBiasRelu
import proofs.«179186_j20684562498293_1_alg».proof.Proof.LibDenseLayers
import proofs.«179186_j20684562498293_1_alg».proof.Proof.LibInPlaceBodies

set_option maxRecDepth 16384

noncomputable section

open Idealize.ShloMosaic Idealize.ShloMosaic.TcCoe Idealize.SL.Sem
open Idealize.ShloMosaic.Pipeline (Dat)
open Idealize.ShloMosaic.ValueIdx
open Cert.Lib.MatProd Cert.Lib.RowBlocks Cert.Lib.BiasRelu Cert.Layers Cert.Lib.InPlaceBodies

namespace Cert.KernelIdeal.Regions

open Cert.KernelIdeal Cert.KernelIdeal.Gen

variable (V : (c : Dev nD) → (b : Ref sig .tc) → Buf (Elt Ideal) ((c : Thread nD τ).loc b))

theorem hz : (![0, 0] : Fin 2 → Nat) = fun _ => 0 := zero_offset2

/-! ## Region 0 -/

/-- The three index maps over the grid: the first window and the output move together down the rows, one block of
    5000 rows per point, and never along the columns; the second window stays at its one block. -/
theorem idx0 : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 :=
  (by decide +kernel : ∀ t : Fin grid0.N, _)

/-- Each of the twenty row blocks is some point's. -/
theorem onto0 : ∀ q : Fin 20, ∃ t : Fin cfg0.N, win0_2.index t (0 : Fin 2) = q.val :=
  (by decide +kernel : ∀ q : Fin 20, ∃ t : Fin grid0.N, win0_2.index t (0 : Fin 2) = q.val)

/-- The first window's block at a point is 5000 consecutive rows of its array. -/
theorem iblk0_0_apply (c : Dev nD) (t : Fin cfg0.N) (y : S5000x128.Idx) (k : S100000x128.Idx)
    (h0 : (k 0).val = win0_2.index t (0 : Fin 2) * 5000 + (y 0).val) (h1 : (k 1).val = (y 1).val) :
    (iblk0 V c 0 t : Vec Ideal S5000x128 .f32) y = (V c main_arg0 : S100000x128.Idx → Elt Ideal .f32) k := by
  obtain ⟨e0, e1, -, -, -⟩ := idx0 t
  unfold iblk0
  rw [View.read_apply]
  show V c main_arg0 _ = V c main_arg0 _
  congr 1
  funext a
  apply Fin.ext
  match a with
  | ⟨0, _⟩ => show win0_0.index t (0 : Fin 2) * 5000 + 1 * (y 0).val = (k 0).val; omega
  | ⟨1, _⟩ => show win0_0.index t (1 : Fin 2) * 128 + 1 * (y 1).val = (k 1).val; omega

/-- The second window's block at every point is its whole array. -/
theorem iblk0_1_eq (c : Dev nD) (t : Fin cfg0.N) :
    (iblk0 V c 1 t : Vec Ideal S128x128 .f32) = (V c main_arg5 : S128x128.Idx → Elt Ideal .f32) := by
  obtain ⟨-, -, e2, e3, -⟩ := idx0 t
  funext y
  unfold iblk0
  rw [View.read_apply]
  show V c main_arg5 _ = V c main_arg5 _
  congr 1
  funext a
  apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The body's stored value at an index of the block: the product of the block's rows with the weights, which is the
    whole product at the index the block's entry sits at. -/
theorem pay0_at (A : S100000x128.Idx → EReal) (B : S128x128.Idx → EReal) (x0 : Vec Ideal S5000x128 .f32) (x1 : Vec Ideal S128x128 .f32)
    (y : S5000x128.Idx) (i : S100000x128.Idx)
    (hA : ∀ cc : Fin 128, x0 (ix2 (⟨(y 0).val, idx2_lt0 y⟩ : Fin 5000) cc) = A (ix2 (⟨(i 0).val, idx2_lt0 i⟩ : Fin 100000) cc))
    (hB : x1 = B) (hcol : (y 1).val = (i 1).val) :
    k0_pay1 (F := Ideal) x0 x1 y = matProd A B i := by
  subst hB
  unfold k0_pay1
  refine (congrFun (narrowed_product dot_S5000x128_S128x128_S5000x128_1_0_0_1_n_n rfl rfl rfl rfl rfl rfl none bitsLt_bf16_f32 x0 x1) y).trans ?_
  exact matProd_rows A x0 x1 y i hA hcol

/-- What a point writes back is its block of the product of its two input arrays. -/
theorem flushed0 (c : Dev nD) (t : Fin cfg0.N) :
    (dat0 V c).flushed 2 t = ((cfg0.win 2).blk t).view.read (Elt Ideal) (matProd (V c main_arg0) (V c main_arg5)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4⟩ := idx0 t
  funext j
  have hr : ((((cfg0.win 2).blk t).view.emb j) 0).val = win0_2.index t (0 : Fin 2) * 5000 + 1 * (j 0).val := rfl
  have hc : ((((cfg0.win 2).blk t).view.emb j) 1).val = win0_2.index t (1 : Fin 2) * 128 + 1 * (j 1).val := rfl
  show k0_pay1 (F := Ideal) (iblk0 V c 0 t) (iblk0 V c 1 t) j = matProd (V c main_arg0) (V c main_arg5) (((cfg0.win 2).blk t).view.emb j)
  refine pay0_at (V c main_arg0) (V c main_arg5) (iblk0 V c 0 t) (iblk0 V c 1 t) j (((cfg0.win 2).blk t).view.emb j) ?_ (iblk0_1_eq V c t) ?_
  · intro cc
    exact iblk0_0_apply V c t _ _ (by show ((((cfg0.win 2).blk t).view.emb j) 0).val = _; rw [hr]; show _ = _ + (j 0).val; omega) rfl
  · rw [hc, e4]; omega

/-- An index of the array is in a point's block when its row is among the block's 5000 rows. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- The twenty blocks cover the array. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := onto0 ⟨(i 0).val / 5000, by omega⟩
  have q0 : win0_2.index t (0 : Fin 2) = (i 0).val / 5000 := ht
  obtain ⟨-, -, -, -, e4⟩ := idx0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region its output array holds the product of its two input arrays. -/
theorem final0 (c : Dev nD) : (dat0 V c).arrAt 2 cfg0.N = matProd (V c main_arg0) (V c main_arg5) :=
  (dat0 V c).arrAt_eq_of_cover 2 (matProd (V c main_arg0) (V c main_arg5)) (fun t _ => flushed0 V c t) (cover0)

/-! ## Region 1 -/

/-- The three index maps over the grid: the first window and the output move together down the rows, one block of
    5000 rows per point, and never along the columns; the second window stays at its one block. -/
theorem idx1 : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = 0 ∧ win1_2.index t (1 : Fin 2) = 0 :=
  (by decide +kernel : ∀ t : Fin grid1.N, _)

/-- Each of the twenty row blocks is some point's. -/
theorem onto1 : ∀ q : Fin 20, ∃ t : Fin cfg1.N, win1_2.index t (0 : Fin 2) = q.val :=
  (by decide +kernel : ∀ q : Fin 20, ∃ t : Fin grid1.N, win1_2.index t (0 : Fin 2) = q.val)

/-- The first window's block at a point is 5000 consecutive rows of its array. -/
theorem iblk1_0_apply (c : Dev nD) (t : Fin cfg1.N) (y : S5000x128.Idx) (k : S100000x128.Idx)
    (h0 : (k 0).val = win1_2.index t (0 : Fin 2) * 5000 + (y 0).val) (h1 : (k 1).val = (y 1).val) :
    (iblk1 V c 0 t : Vec Ideal S5000x128 .f32) y = (V c main_v45 : S100000x128.Idx → Elt Ideal .f32) k := by
  obtain ⟨e0, e1, -, -, -⟩ := idx1 t
  unfold iblk1
  rw [View.read_apply]
  show V c main_v45 _ = V c main_v45 _
  congr 1
  funext a
  apply Fin.ext
  match a with
  | ⟨0, _⟩ => show win1_0.index t (0 : Fin 2) * 5000 + 1 * (y 0).val = (k 0).val; omega
  | ⟨1, _⟩ => show win1_0.index t (1 : Fin 2) * 128 + 1 * (y 1).val = (k 1).val; omega

/-- The second window's block at every point is its whole array. -/
theorem iblk1_1_eq (c : Dev nD) (t : Fin cfg1.N) :
    (iblk1 V c 1 t : Vec Ideal S1x128 .f32) = (V c main_v46 : S1x128.Idx → Elt Ideal .f32) := by
  obtain ⟨-, -, e2, e3, -⟩ := idx1 t
  funext y
  unfold iblk1
  rw [View.read_apply]
  show V c main_v46 _ = V c main_v46 _
  congr 1
  funext a
  apply Fin.ext
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- The body's stored value at an index of the block: the block's entry plus the bias entry of its column, clamped below at zero, which is the whole array's at the index the block's entry sits at. -/
theorem pay1_at (A : S100000x128.Idx → EReal) (B : S1x128.Idx → EReal) (x0 : Vec Ideal S5000x128 .f32) (x1 : Vec Ideal S1x128 .f32)
    (y : S5000x128.Idx) (i : S100000x128.Idx) (hA : x0 y = A i) (hB : x1 = B) (hcol : (y 1).val = (i 1).val) :
    k1_pay1 (F := Ideal) x0 x1 y = biasRelu A B i := by
  subst hB
  unfold k1_pay1
  refine (congrFun (body_eq x0 x1 shapeCasts_S5000x128_S5000x128 shapeCasts_S1x128_S1x128 broadcasts_S1x128_S5000x128) y).trans ?_
  exact biasRelu_at A x0 x1 y i hA hcol

/-- What a point writes back is its block of its first input array plus the bias row, clamped below at zero. -/
theorem flushed1 (c : Dev nD) (t : Fin cfg1.N) :
    (dat1 V c).flushed 2 t = ((cfg1.win 2).blk t).view.read (Elt Ideal) (biasRelu (V c main_v45) (V c main_v46)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4⟩ := idx1 t
  funext j
  have hr : ((((cfg1.win 2).blk t).view.emb j) 0).val = win1_2.index t (0 : Fin 2) * 5000 + 1 * (j 0).val := rfl
  have hc : ((((cfg1.win 2).blk t).view.emb j) 1).val = win1_2.index t (1 : Fin 2) * 128 + 1 * (j 1).val := rfl
  show k1_pay1 (F := Ideal) (iblk1 V c 0 t) (iblk1 V c 1 t) j = biasRelu (V c main_v45) (V c main_v46) (((cfg1.win 2).blk t).view.emb j)
  refine pay1_at (V c main_v45) (V c main_v46) (iblk1 V c 0 t) (iblk1 V c 1 t) j (((cfg1.win 2).blk t).view.emb j) ?_ (iblk1_1_eq V c t) ?_
  · exact iblk1_0_apply V c t j _ (by rw [hr]; omega) (by rw [hc, e4]; omega)
  · rw [hc, e4]; omega

/-- An index of the array is in a point's block when its row is among the block's 5000 rows. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- The twenty blocks cover the array. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := onto1 ⟨(i 0).val / 5000, by omega⟩
  have q0 : win1_2.index t (0 : Fin 2) = (i 0).val / 5000 := ht
  obtain ⟨-, -, -, -, e4⟩ := idx1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region its output array holds its first input array plus the bias row, clamped below at zero. -/
theorem final1 (c : Dev nD) : (dat1 V c).arrAt 2 cfg1.N = biasRelu (V c main_v45) (V c main_v46) :=
  (dat1 V c).arrAt_eq_of_cover 2 (biasRelu (V c main_v45) (V c main_v46)) (fun t _ => flushed1 V c t) (cover1)

/-! ## Region 2 -/

/-- The three index maps over the grid: the first window and the output move together down the rows, one block of
    5000 rows per point, and never along the columns; the second window stays at its one block. -/
theorem idx2 : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = 0 ∧ win2_2.index t (1 : Fin 2) = 0 :=
  (by decide +kernel : ∀ t : Fin grid2.N, _)

/-- Each of the twenty row blocks is some point's. -/
theorem onto2 : ∀ q : Fin 20, ∃ t : Fin cfg2.N, win2_2.index t (0 : Fin 2) = q.val :=
  (by decide +kernel : ∀ q : Fin 20, ∃ t : Fin grid2.N, win2_2.index t (0 : Fin 2) = q.val)

/-- The first window's block at a point is 5000 consecutive rows of its array. -/
theorem iblk2_0_apply (c : Dev nD) (t : Fin cfg2.N) (y : S5000x128.Idx) (k : S100000x128.Idx)
    (h0 : (k 0).val = win2_2.index t (0 : Fin 2) * 5000 + (y 0).val) (h1 : (k 1).val = (y 1).val) :
    (iblk2 V c 0 t : Vec Ideal S5000x128 .f32) y = (V c main_v47 : S100000x128.Idx → Elt Ideal .f32) k := by
  obtain ⟨e0, e1, -, -, -⟩ := idx2 t
  unfold iblk2
  rw [View.read_apply]
  show V c main_v47 _ = V c main_v47 _
  congr 1
  funext a
  apply Fin.ext
  match a with
  | ⟨0, _⟩ => show win2_0.index t (0 : Fin 2) * 5000 + 1 * (y 0).val = (k 0).val; omega
  | ⟨1, _⟩ => show win2_0.index t (1 : Fin 2) * 128 + 1 * (y 1).val = (k 1).val; omega

/-- The second window's block at every point is its whole array. -/
theorem iblk2_1_eq (c : Dev nD) (t : Fin cfg2.N) :
    (iblk2 V c 1 t : Vec Ideal S128x128 .f32) = (V c main_arg7 : S128x128.Idx → Elt Ideal .f32) := by
  obtain ⟨-, -, e2, e3, -⟩ := idx2 t
  funext y
  unfold iblk2
  rw [View.read_apply]
  show V c main_arg7 _ = V c main_arg7 _
  congr 1
  funext a
  apply Fin.ext
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- The body's stored value at an index of the block: the product of the block's rows with the weights, which is the
    whole product at the index the block's entry sits at. -/
theorem pay2_at (A : S100000x128.Idx → EReal) (B : S128x128.Idx → EReal) (x0 : Vec Ideal S5000x128 .f32) (x1 : Vec Ideal S128x128 .f32)
    (y : S5000x128.Idx) (i : S100000x128.Idx)
    (hA : ∀ cc : Fin 128, x0 (ix2 (⟨(y 0).val, idx2_lt0 y⟩ : Fin 5000) cc) = A (ix2 (⟨(i 0).val, idx2_lt0 i⟩ : Fin 100000) cc))
    (hB : x1 = B) (hcol : (y 1).val = (i 1).val) :
    k2_pay1 (F := Ideal) x0 x1 y = matProd A B i := by
  subst hB
  unfold k2_pay1
  refine (congrFun (narrowed_product_cast dot_S5000x128_S128x128_S5000x128_1_0_0_1_n_n rfl rfl rfl rfl rfl rfl none bitsLt_bf16_f32 shapeCasts_S5000x128_S5000x128 x0 x1) y).trans ?_
  exact matProd_rows A x0 x1 y i hA hcol

/-- What a point writes back is its block of the product of its two input arrays. -/
theorem flushed2 (c : Dev nD) (t : Fin cfg2.N) :
    (dat2 V c).flushed 2 t = ((cfg2.win 2).blk t).view.read (Elt Ideal) (matProd (V c main_v47) (V c main_arg7)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4⟩ := idx2 t
  funext j
  have hr : ((((cfg2.win 2).blk t).view.emb j) 0).val = win2_2.index t (0 : Fin 2) * 5000 + 1 * (j 0).val := rfl
  have hc : ((((cfg2.win 2).blk t).view.emb j) 1).val = win2_2.index t (1 : Fin 2) * 128 + 1 * (j 1).val := rfl
  show k2_pay1 (F := Ideal) (iblk2 V c 0 t) (iblk2 V c 1 t) j = matProd (V c main_v47) (V c main_arg7) (((cfg2.win 2).blk t).view.emb j)
  refine pay2_at (V c main_v47) (V c main_arg7) (iblk2 V c 0 t) (iblk2 V c 1 t) j (((cfg2.win 2).blk t).view.emb j) ?_ (iblk2_1_eq V c t) ?_
  · intro cc
    exact iblk2_0_apply V c t _ _ (by show ((((cfg2.win 2).blk t).view.emb j) 0).val = _; rw [hr]; show _ = _ + (j 0).val; omega) rfl
  · rw [hc, e4]; omega

/-- An index of the array is in a point's block when its row is among the block's 5000 rows. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- The twenty blocks cover the array. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := onto2 ⟨(i 0).val / 5000, by omega⟩
  have q0 : win2_2.index t (0 : Fin 2) = (i 0).val / 5000 := ht
  obtain ⟨-, -, -, -, e4⟩ := idx2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region its output array holds the product of its two input arrays. -/
theorem final2 (c : Dev nD) : (dat2 V c).arrAt 2 cfg2.N = matProd (V c main_v47) (V c main_arg7) :=
  (dat2 V c).arrAt_eq_of_cover 2 (matProd (V c main_v47) (V c main_arg7)) (fun t _ => flushed2 V c t) (cover2)

/-! ## Region 3 -/

/-- The three index maps over the grid: the first window and the output move together down the rows, one block of
    5000 rows per point, and never along the columns; the second window stays at its one block. -/
theorem idx3 : ∀ t : Fin cfg3.N, win3_0.index t (0 : Fin 2) = win3_2.index t (0 : Fin 2) ∧ win3_0.index t (1 : Fin 2) = 0
    ∧ win3_1.index t (0 : Fin 2) = 0 ∧ win3_1.index t (1 : Fin 2) = 0 ∧ win3_2.index t (1 : Fin 2) = 0 :=
  (by decide +kernel : ∀ t : Fin grid3.N, _)

/-- Each of the twenty row blocks is some point's. -/
theorem onto3 : ∀ q : Fin 20, ∃ t : Fin cfg3.N, win3_2.index t (0 : Fin 2) = q.val :=
  (by decide +kernel : ∀ q : Fin 20, ∃ t : Fin grid3.N, win3_2.index t (0 : Fin 2) = q.val)

/-- The first window's block at a point is 5000 consecutive rows of its array. -/
theorem iblk3_0_apply (c : Dev nD) (t : Fin cfg3.N) (y : S5000x128.Idx) (k : S100000x128.Idx)
    (h0 : (k 0).val = win3_2.index t (0 : Fin 2) * 5000 + (y 0).val) (h1 : (k 1).val = (y 1).val) :
    (iblk3 V c 0 t : Vec Ideal S5000x128 .f32) y = (V c main_v61 : S100000x128.Idx → Elt Ideal .f32) k := by
  obtain ⟨e0, e1, -, -, -⟩ := idx3 t
  unfold iblk3
  rw [View.read_apply]
  show V c main_v61 _ = V c main_v61 _
  congr 1
  funext a
  apply Fin.ext
  match a with
  | ⟨0, _⟩ => show win3_0.index t (0 : Fin 2) * 5000 + 1 * (y 0).val = (k 0).val; omega
  | ⟨1, _⟩ => show win3_0.index t (1 : Fin 2) * 128 + 1 * (y 1).val = (k 1).val; omega

/-- The second window's block at every point is its whole array. -/
theorem iblk3_1_eq (c : Dev nD) (t : Fin cfg3.N) :
    (iblk3 V c 1 t : Vec Ideal S1x128 .f32) = (V c main_v62 : S1x128.Idx → Elt Ideal .f32) := by
  obtain ⟨-, -, e2, e3, -⟩ := idx3 t
  funext y
  unfold iblk3
  rw [View.read_apply]
  show V c main_v62 _ = V c main_v62 _
  congr 1
  funext a
  apply Fin.ext
  match a with
  | ⟨0, _⟩ => show win3_1.index t (0 : Fin 2) * 1 + 1 * (y 0).val = (y 0).val; omega
  | ⟨1, _⟩ => show win3_1.index t (1 : Fin 2) * 128 + 1 * (y 1).val = (y 1).val; omega

/-- The body's stored value at an index of the block: the block's entry plus the bias entry of its column, which is the whole array's at the index the block's entry sits at. -/
theorem pay3_at (A : S100000x128.Idx → EReal) (B : S1x128.Idx → EReal) (x0 : Vec Ideal S5000x128 .f32) (x1 : Vec Ideal S1x128 .f32)
    (y : S5000x128.Idx) (i : S100000x128.Idx) (hA : x0 y = A i) (hB : x1 = B) (hcol : (y 1).val = (i 1).val) :
    k3_pay1 (F := Ideal) x0 x1 y = biasAdd A B i := by
  subst hB
  unfold k3_pay1
  refine (congrFun (bias_in_place x0 x1 shapeCasts_S5000x128_S5000x128 shapeCasts_S1x128_S1x128 broadcasts_S1x128_S5000x128) y).trans ?_
  exact biasAdd_at A x0 x1 y i hA hcol

/-- What a point writes back is its block of its first input array plus the bias row. -/
theorem flushed3 (c : Dev nD) (t : Fin cfg3.N) :
    (dat3 V c).flushed 2 t = ((cfg3.win 2).blk t).view.read (Elt Ideal) (biasAdd (V c main_v61) (V c main_v62)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e0, e1, e2, e3, e4⟩ := idx3 t
  funext j
  have hr : ((((cfg3.win 2).blk t).view.emb j) 0).val = win3_2.index t (0 : Fin 2) * 5000 + 1 * (j 0).val := rfl
  have hc : ((((cfg3.win 2).blk t).view.emb j) 1).val = win3_2.index t (1 : Fin 2) * 128 + 1 * (j 1).val := rfl
  show k3_pay1 (F := Ideal) (iblk3 V c 0 t) (iblk3 V c 1 t) j = biasAdd (V c main_v61) (V c main_v62) (((cfg3.win 2).blk t).view.emb j)
  refine pay3_at (V c main_v61) (V c main_v62) (iblk3 V c 0 t) (iblk3 V c 1 t) j (((cfg3.win 2).blk t).view.emb j) ?_ (iblk3_1_eq V c t) ?_
  · exact iblk3_0_apply V c t j _ (by rw [hr]; omega) (by rw [hc, e4]; omega)
  · rw [hc, e4]; omega

/-- An index of the array is in a point's block when its row is among the block's 5000 rows. -/
theorem mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v63).slice (win3_2.rect t)).set ↔ _
  rw [View.set_slice_whole, Rect.mem_set_unit]
  exact Iff.rfl

/-- The twenty blocks cover the array. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := onto3 ⟨(i 0).val / 5000, by omega⟩
  have q0 : win3_2.index t (0 : Fin 2) = (i 0).val / 5000 := ht
  obtain ⟨-, -, -, -, e4⟩ := idx3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the region its output array holds its first input array plus the bias row. -/
theorem final3 (c : Dev nD) : (dat3 V c).arrAt 2 cfg3.N = biasAdd (V c main_v61) (V c main_v62) :=
  (dat3 V c).arrAt_eq_of_cover 2 (biasAdd (V c main_v61) (V c main_v62)) (fun t _ => flushed3 V c t) (cover3)

end Cert.KernelIdeal.Regions

end
-- ==== Proof.Spec.lean ====
/-
  The two graph-convolution layers as one function of the argument arrays, on the extended reals.

  With the edge list fixed, a layer's aggregation takes node features H to the array whose row for a node is the sum,
  over the messages that go to that node, of the source node's row of H times the message's scale. The network is
  two such layers: features times the first weights, aggregated, plus the first bias row and clamped below at zero;
  then that times the second weights, aggregated, plus the second bias row. The kernel and the reference compute this
  same function: they differ in how the two matrix products and the two bias steps are carried out, not in what they are.
-/
import proofs.«179186_j20684562498293_1_alg».proof.Proof.KernelHost
import proofs.«179186_j20684562498293_1_alg».proof.Proof.LibMatProd
import proofs.«179186_j20684562498293_1_alg».proof.Proof.LibBiasRelu
import proofs.«179186_j20684562498293_1_alg».proof.Proof.LibDenseLayers
import proofs.«179186_j20684562498293_1_alg».proof.Proof.LibRowVector

noncomputable section

namespace Cert.KernelIdeal.Spec

open Cert.KernelIdeal Cert.KernelIdeal.Host Idealize.ShloMosaic
open Cert.Lib.MatProd Cert.Lib.BiasRelu Cert.Layers Cert.Lib.RowVector

/-- One layer's aggregation over the edge list: the node lists and the scales are the edge list's. -/
def layerAgg (ei : (⟨S2x1600000, .i32⟩ : BufTy).Contents (Elt Ideal)) (H : FVec Ideal S100000x128 .f32) : FVec Ideal S100000x128 .f32 :=
  aggregate (F := Ideal) (srcOf ei) (dstOf ei) (normOf (srcOf ei) (dstOf ei)) H

/-- The two layers. -/
def gcn (x : FVec Ideal S100000x128 .f32) (ei : (⟨S2x1600000, .i32⟩ : BufTy).Contents (Elt Ideal))
    (w1 : FVec Ideal S128x128 .f32) (b1 : FVec Ideal S128 .f32) (w2 : FVec Ideal S128x128 .f32) (b2 : FVec Ideal S128 .f32) :
    FVec Ideal S100000x128 .f32 :=
  biasAdd (layerAgg ei (matProd (biasRelu (layerAgg ei (matProd x w1)) (asRow b1)) w2)) (asRow b2)

end Cert.KernelIdeal.Spec

end
-- ==== Proof.KernelValue.lean ====
/-
  The idealized kernel's result array as the two layers of the argument arrays.

  The contents of the buffers at the seven segment boundaries are followed from the launch memory. The first stretch of
  host operations leaves the two node lists and the messages' scales, functions of the edge list alone; no later
  segment writes them, nor any argument. The first region leaves the features times the first weights; the second
  stretch aggregates that and re-shapes the first bias to a row; the second region adds the row and clamps at zero; the
  third region multiplies by the second weights; the third stretch aggregates again and re-shapes the second bias; the
  last region adds it. Composed, the result buffer ends at the two layers of the arguments.
-/
import proofs.«179186_j20684562498293_1_alg».proof.Proof.Gen.KernelIdeal.Frame
import proofs.«179186_j20684562498293_1_alg».proof.Proof.KernelHost
import proofs.«179186_j20684562498293_1_alg».proof.Proof.KernelRegions
import proofs.«179186_j20684562498293_1_alg».proof.Proof.Spec

set_option maxRecDepth 16384

noncomputable section

namespace Cert.KernelIdeal.Composed

open Cert.KernelIdeal Cert.KernelIdeal.Gen Cert.KernelIdeal.Host Cert.KernelIdeal.Regions Cert.KernelIdeal.Spec
open Idealize.ShloMosaic Idealize.ShloMosaic.TcCoe Idealize.SL.Sem
open Cert.Lib.MatProd Cert.Lib.BiasRelu Cert.Layers Cert.Lib.RowVector

variable (m : (ℓ : Loc nD τ sig) → Buf (Elt Ideal) ℓ) (ρ : Dev nD → PrngReg) (c : Dev nD)

/-! ## After the first stretch of host operations -/

theorem at1_src : W1 m ρ c (Proc.devRef .tc main_v3) = (srcOf (m ((c.tc : Thread nD τ).loc main_arg2))) := first_src (W0 m ρ c)
theorem at1_dst : W1 m ρ c (Proc.devRef .tc main_v6) = (dstOf (m ((c.tc : Thread nD τ).loc main_arg2))) := first_dst (W0 m ρ c)
theorem at1_norm : W1 m ρ c (Proc.devRef .tc main_v31) = (normOf (srcOf (m ((c.tc : Thread nD τ).loc main_arg2))) (dstOf (m ((c.tc : Thread nD τ).loc main_arg2)))) := first_norm (W0 m ρ c)
theorem at1_arg0 : W1 m ρ c (Proc.devRef .tc main_arg0) = (m ((c.tc : Thread nD τ).loc main_arg0)) := first_keeps_main_arg0 (W0 m ρ c)
theorem at1_arg5 : W1 m ρ c (Proc.devRef .tc main_arg5) = (m ((c.tc : Thread nD τ).loc main_arg5)) := first_keeps_main_arg5 (W0 m ρ c)
theorem at1_arg6 : W1 m ρ c (Proc.devRef .tc main_arg6) = (m ((c.tc : Thread nD τ).loc main_arg6)) := first_keeps_main_arg6 (W0 m ρ c)
theorem at1_arg7 : W1 m ρ c (Proc.devRef .tc main_arg7) = (m ((c.tc : Thread nD τ).loc main_arg7)) := first_keeps_main_arg7 (W0 m ρ c)
theorem at1_arg8 : W1 m ρ c (Proc.devRef .tc main_arg8) = (m ((c.tc : Thread nD τ).loc main_arg8)) := first_keeps_main_arg8 (W0 m ρ c)

/-! ## After the first region: the features times the first weights -/

theorem at2_src : W2 m ρ c (Proc.devRef .tc main_v3) = (srcOf (m ((c.tc : Thread nD τ).loc main_arg2))) := (W2_of_ne m ρ c main_v3 (by decide)).trans (at1_src m ρ c)
theorem at2_dst : W2 m ρ c (Proc.devRef .tc main_v6) = (dstOf (m ((c.tc : Thread nD τ).loc main_arg2))) := (W2_of_ne m ρ c main_v6 (by decide)).trans (at1_dst m ρ c)
theorem at2_norm : W2 m ρ c (Proc.devRef .tc main_v31) = (normOf (srcOf (m ((c.tc : Thread nD τ).loc main_arg2))) (dstOf (m ((c.tc : Thread nD τ).loc main_arg2)))) := (W2_of_ne m ρ c main_v31 (by decide)).trans (at1_norm m ρ c)
theorem at2_arg6 : W2 m ρ c (Proc.devRef .tc main_arg6) = (m ((c.tc : Thread nD τ).loc main_arg6)) := (W2_of_ne m ρ c main_arg6 (by decide)).trans (at1_arg6 m ρ c)
theorem at2_arg7 : W2 m ρ c (Proc.devRef .tc main_arg7) = (m ((c.tc : Thread nD τ).loc main_arg7)) := (W2_of_ne m ρ c main_arg7 (by decide)).trans (at1_arg7 m ρ c)
theorem at2_arg8 : W2 m ρ c (Proc.devRef .tc main_arg8) = (m ((c.tc : Thread nD τ).loc main_arg8)) := (W2_of_ne m ρ c main_arg8 (by decide)).trans (at1_arg8 m ρ c)
theorem at2_prod : W2 m ρ c (Proc.devRef .tc main_v32) = (matProd (m ((c.tc : Thread nD τ).loc main_arg0)) (m ((c.tc : Thread nD τ).loc main_arg5))) := by
  refine (W2_arr m ρ c 2).trans ((final0 (V1 m ρ) c).trans ?_)
  show matProd (W1 m ρ c (Proc.devRef .tc main_arg0)) (W1 m ρ c (Proc.devRef .tc main_arg5)) = _
  rw [at1_arg0 m ρ c, at1_arg5 m ρ c]

/-! ## After the second stretch: the first aggregation, and the first bias as a row -/

theorem at3_src : W3 m ρ c (Proc.devRef .tc main_v3) = (srcOf (m ((c.tc : Thread nD τ).loc main_arg2))) := (second_keeps_main_v3 (W2 m ρ c)).trans (at2_src m ρ c)
theorem at3_dst : W3 m ρ c (Proc.devRef .tc main_v6) = (dstOf (m ((c.tc : Thread nD τ).loc main_arg2))) := (second_keeps_main_v6 (W2 m ρ c)).trans (at2_dst m ρ c)
theorem at3_norm : W3 m ρ c (Proc.devRef .tc main_v31) = (normOf (srcOf (m ((c.tc : Thread nD τ).loc main_arg2))) (dstOf (m ((c.tc : Thread nD τ).loc main_arg2)))) := (second_keeps_main_v31 (W2 m ρ c)).trans (at2_norm m ρ c)
theorem at3_arg7 : W3 m ρ c (Proc.devRef .tc main_arg7) = (m ((c.tc : Thread nD τ).loc main_arg7)) := (second_keeps_main_arg7 (W2 m ρ c)).trans (at2_arg7 m ρ c)
theorem at3_arg8 : W3 m ρ c (Proc.devRef .tc main_arg8) = (m ((c.tc : Thread nD τ).loc main_arg8)) := (second_keeps_main_arg8 (W2 m ρ c)).trans (at2_arg8 m ρ c)
theorem at3_agg : W3 m ρ c (Proc.devRef .tc main_v45) = (layerAgg (m ((c.tc : Thread nD τ).loc main_arg2)) (matProd (m ((c.tc : Thread nD τ).loc main_arg0)) (m ((c.tc : Thread nD τ).loc main_arg5)))) := by
  refine (second_agg (W2 m ρ c)).trans ?_
  rw [at2_src m ρ c, at2_dst m ρ c, at2_norm m ρ c, at2_prod m ρ c]
  rfl
theorem at3_bias : W3 m ρ c (Proc.devRef .tc main_v46) = asRow (m ((c.tc : Thread nD τ).loc main_arg6)) := by
  refine (second_bias (W2 m ρ c)).trans ?_
  rw [at2_arg6 m ρ c]
  exact shapeCast_eq_asRow _ _

/-! ## After the second region: the bias added and the result clamped at zero -/

theorem at4_src : W4 m ρ c (Proc.devRef .tc main_v3) = (srcOf (m ((c.tc : Thread nD τ).loc main_arg2))) := (W4_of_ne m ρ c main_v3 (by decide)).trans (at3_src m ρ c)
theorem at4_dst : W4 m ρ c (Proc.devRef .tc main_v6) = (dstOf (m ((c.tc : Thread nD τ).loc main_arg2))) := (W4_of_ne m ρ c main_v6 (by decide)).trans (at3_dst m ρ c)
theorem at4_norm : W4 m ρ c (Proc.devRef .tc main_v31) = (normOf (srcOf (m ((c.tc : Thread nD τ).loc main_arg2))) (dstOf (m ((c.tc : Thread nD τ).loc main_arg2)))) := (W4_of_ne m ρ c main_v31 (by decide)).trans (at3_norm m ρ c)
theorem at4_arg7 : W4 m ρ c (Proc.devRef .tc main_arg7) = (m ((c.tc : Thread nD τ).loc main_arg7)) := (W4_of_ne m ρ c main_arg7 (by decide)).trans (at3_arg7 m ρ c)
theorem at4_arg8 : W4 m ρ c (Proc.devRef .tc main_arg8) = (m ((c.tc : Thread nD τ).loc main_arg8)) := (W4_of_ne m ρ c main_arg8 (by decide)).trans (at3_arg8 m ρ c)
theorem at4_relu : W4 m ρ c (Proc.devRef .tc main_v47) = (biasRelu (layerAgg (m ((c.tc : Thread nD τ).loc main_arg2)) (matProd (m ((c.tc : Thread nD τ).loc main_arg0)) (m ((c.tc : Thread nD τ).loc main_arg5)))) (asRow (m ((c.tc : Thread nD τ).loc main_arg6)))) := by
  refine (W4_arr m ρ c 2).trans ((final1 (V3 m ρ) c).trans ?_)
  show biasRelu (W3 m ρ c (Proc.devRef .tc main_v45)) (W3 m ρ c (Proc.devRef .tc main_v46)) = _
  rw [at3_agg m ρ c, at3_bias m ρ c]

/-! ## After the third region: times the second weights -/

theorem at5_src : W5 m ρ c (Proc.devRef .tc main_v3) = (srcOf (m ((c.tc : Thread nD τ).loc main_arg2))) := (W5_of_ne m ρ c main_v3 (by decide)).trans (at4_src m ρ c)
theorem at5_dst : W5 m ρ c (Proc.devRef .tc main_v6) = (dstOf (m ((c.tc : Thread nD τ).loc main_arg2))) := (W5_of_ne m ρ c main_v6 (by decide)).trans (at4_dst m ρ c)
theorem at5_norm : W5 m ρ c (Proc.devRef .tc main_v31) = (normOf (srcOf (m ((c.tc : Thread nD τ).loc main_arg2))) (dstOf (m ((c.tc : Thread nD τ).loc main_arg2)))) := (W5_of_ne m ρ c main_v31 (by decide)).trans (at4_norm m ρ c)
theorem at5_arg8 : W5 m ρ c (Proc.devRef .tc main_arg8) = (m ((c.tc : Thread nD τ).loc main_arg8)) := (W5_of_ne m ρ c main_arg8 (by decide)).trans (at4_arg8 m ρ c)
theorem at5_prod : W5 m ρ c (Proc.devRef .tc main_v48) = (matProd (biasRelu (layerAgg (m ((c.tc : Thread nD τ).loc main_arg2)) (matProd (m ((c.tc : Thread nD τ).loc main_arg0)) (m ((c.tc : Thread nD τ).loc main_arg5)))) (asRow (m ((c.tc : Thread nD τ).loc main_arg6)))) (m ((c.tc : Thread nD τ).loc main_arg7))) := by
  refine (W5_arr m ρ c 2).trans ((final2 (V4 m ρ) c).trans ?_)
  show matProd (W4 m ρ c (Proc.devRef .tc main_v47)) (W4 m ρ c (Proc.devRef .tc main_arg7)) = _
  rw [at4_relu m ρ c, at4_arg7 m ρ c]

/-! ## After the third stretch: the second aggregation, and the second bias as a row -/

theorem at6_agg : W6 m ρ c (Proc.devRef .tc main_v61) = (layerAgg (m ((c.tc : Thread nD τ).loc main_arg2)) (matProd (biasRelu (layerAgg (m ((c.tc : Thread nD τ).loc main_arg2)) (matProd (m ((c.tc : Thread nD τ).loc main_arg0)) (m ((c.tc : Thread nD τ).loc main_arg5)))) (asRow (m ((c.tc : Thread nD τ).loc main_arg6)))) (m ((c.tc : Thread nD τ).loc main_arg7)))) := by
  refine (third_agg (W5 m ρ c)).trans ?_
  rw [at5_src m ρ c, at5_dst m ρ c, at5_norm m ρ c, at5_prod m ρ c]
  rfl
theorem at6_bias : W6 m ρ c (Proc.devRef .tc main_v62) = asRow (m ((c.tc : Thread nD τ).loc main_arg8)) := by
  refine (third_bias (W5 m ρ c)).trans ?_
  rw [at5_arg8 m ρ c]
  exact shapeCast_eq_asRow _ _

/-! ## After the last region -/

/-- The result buffer ends at the two layers of the argument arrays. -/
theorem result_eq : W7 m ρ c (Proc.devRef .tc main_v63)
    = gcn (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  refine (W7_arr m ρ c 2).trans ((final3 (V6 m ρ) c).trans ?_)
  show biasAdd (W6 m ρ c (Proc.devRef .tc main_v61)) (W6 m ρ c (Proc.devRef .tc main_v62)) = _
  rw [at6_agg m ρ c, at6_bias m ρ c]
  rfl

end Cert.KernelIdeal.Composed

end
-- ==== Proof.RefValue.lean ====
/-
  The reference's result array as the two layers of its argument arrays.

  The reference's run ends with its result at the composed term of its operations. That term is, read from the outside
  in: the second bias vector broadcast to every row and added to the aggregation of the second product; the second
  product's left operand is the maximum with zero of the first bias broadcast and added to the aggregation of the first
  product. Its node lists and scales are the same operations of the edge list as the kernel's, term for term, so its
  aggregation is the kernel's function. A host product is the matrix product on the extended reals; a vector broadcast
  to a 1×128 row and then to every row, added, is the bias row added; with the maximum against a broadcast zero it is
  the clamped bias. So the term is the two layers of the arguments.
-/
import proofs.«179186_j20684562498293_1_alg».proof.Proof.Gen.ReferenceIdeal.Run
import proofs.«179186_j20684562498293_1_alg».proof.Proof.Spec

set_option maxRecDepth 16384

noncomputable section

namespace Cert.ReferenceIdeal.RefValue

open Cert.ReferenceIdeal Cert.ReferenceIdeal.Gen Idealize.ShloMosaic Idealize.ShloMosaic.TcCoe Idealize.SL.Sem
open Cert.Lib.MatProd Cert.Lib.BiasRelu Cert.Layers Cert.Lib.RowVector

variable (m' : (ℓ : Loc nD τ sig) → Buf (Elt Ideal) ℓ) (c : Dev nD)

set_option maxHeartbeats 4000000 in
/-- The composed term with the aggregation named: the same operations of the edge list as the kernel's. -/
theorem term_eq : Cert.ReferenceIdeal.Value.res_main_v81 (F := Ideal) m' c
    = addf (Cert.KernelIdeal.Spec.layerAgg (m' ((c.tc : Thread nD τ).loc main_arg2)) (Host.dotGeneral (φ₁ := .f32) (φ₂ := .f32) dot_S100000x128_S128x128_S100000x128_1_0_0_1_n_n none (maximumf (addf (Cert.KernelIdeal.Spec.layerAgg (m' ((c.tc : Thread nD τ).loc main_arg2)) (Host.dotGeneral (φ₁ := .f32) (φ₂ := .f32) dot_S100000x128_S128x128_S100000x128_1_0_0_1_n_n none (m' ((c.tc : Thread nD τ).loc main_arg0)) (m' ((c.tc : Thread nD τ).loc main_arg5)))) (broadcastInDim S100000x128 ![0, 1] bcast_S1x128_S100000x128_0_1 (broadcastInDim S1x128 ![1] bcast_S128_S1x128_1 (m' ((c.tc : Thread nD τ).loc main_arg6))))) (broadcastInDim S100000x128 ![] bcast_S_S100000x128 (constant S_ .f32 0x00000000#32))) (m' ((c.tc : Thread nD τ).loc main_arg7)))) (broadcastInDim S100000x128 ![0, 1] bcast_S1x128_S100000x128_0_1 (broadcastInDim S1x128 ![1] bcast_S128_S1x128_1 (m' ((c.tc : Thread nD τ).loc main_arg8)))) := by
  unfold Cert.ReferenceIdeal.Value.res_main_v81
  rfl

/-- The reference's result is the two layers of its arguments. -/
theorem result_eq : Cert.ReferenceIdeal.Value.res_main_v81 (F := Ideal) m' c
    = Cert.KernelIdeal.Spec.gcn (m' ((c.tc : Thread nD τ).loc main_arg0)) (m' ((c.tc : Thread nD τ).loc main_arg2)) (m' ((c.tc : Thread nD τ).loc main_arg5)) (m' ((c.tc : Thread nD τ).loc main_arg6)) (m' ((c.tc : Thread nD τ).loc main_arg7)) (m' ((c.tc : Thread nD τ).loc main_arg8)) := by
  rw [term_eq m' c]
  rw [host_eq (n := 100000) (k := 128), host_bias (r := 100000) (n := 128)]
  simp only [Host.dotGeneral]
  rw [dotGeneral_eq_matProd (φ₁ := .f32) (φ₂ := .f32) (m := 100000) (k := 128) (n := 128) dot_S100000x128_S128x128_S100000x128_1_0_0_1_n_n rfl rfl rfl rfl rfl rfl none .single (m' ((c.tc : Thread nD τ).loc main_arg0)) (m' ((c.tc : Thread nD τ).loc main_arg5))]
  rw [dotGeneral_eq_matProd (φ₁ := .f32) (φ₂ := .f32) (m := 100000) (k := 128) (n := 128) dot_S100000x128_S128x128_S100000x128_1_0_0_1_n_n rfl rfl rfl rfl rfl rfl none .single]
  rfl

end Cert.ReferenceIdeal.RefValue

end
-- ==== Proof.lean ====
/-
  Two graph-convolution layers over 100000 nodes and 1600000 edges, as a kernel and as a reference, compute one function
  on the extended reals.

  With a self loop appended for every node, a message goes from a source node to a destination node; a node's degree is
  the number of messages that go to it, and a message's scale is the product of its two ends' inverse square-root
  degrees. A layer multiplies the node features by a 128×128 weight matrix, sends along every message the source node's
  row times the message's scale, adds up at every node the messages that go to it, and adds a bias row; the first
  layer also takes the maximum with zero. The kernel carries out the two matrix products and the two bias steps in
  kernel regions that walk the rows in twenty blocks of 5000, its operands narrowed to a shorter float format before the
  products; the index arithmetic, the gathers and the scatter-adds are the same host operations in both programs.

  At the ideal instance narrowing a float is the identity, and a block of rows of X times W is the same rows of X·W:
  an entry of a product is a sum over one row of X and one column of W, the same sum in both. A bias row added to a block
  of rows, and the maximum of that with zero, are the same rows of the biased array. The blocks tile the array, so each
  region leaves a whole-array function of its inputs, and the host operations between the regions are the reference's
  operations applied to equal arrays. No law of the extended reals beyond this rearrangement is used — nothing is
  distributed or cancelled — so the finiteness of the inputs is never opened.

  The three programs' frames are the generated ones (the reference's is its generated run with the result dropped); the
  idealization rewrote no operation, so there is nothing to preserve; and the two idealized programs, from memories
  that agree on the arguments, end with the same result array.
-/
import proofs.«179186_j20684562498293_1_alg».proof.Defs
import proofs.«179186_j20684562498293_1_alg».proof.Proof.Gen.Kernel
import proofs.«179186_j20684562498293_1_alg».proof.Proof.Gen.Kernel.Skeleton
import proofs.«179186_j20684562498293_1_alg».proof.Proof.Gen.Kernel.Launch
import proofs.«179186_j20684562498293_1_alg».proof.Proof.Gen.Kernel.Points
import proofs.«179186_j20684562498293_1_alg».proof.Proof.Gen.Kernel.Frame
import proofs.«179186_j20684562498293_1_alg».proof.Proof.Gen.KernelIdeal
import proofs.«179186_j20684562498293_1_alg».proof.Proof.Gen.KernelIdeal.Skeleton
import proofs.«179186_j20684562498293_1_alg».proof.Proof.Gen.KernelIdeal.Launch
import proofs.«179186_j20684562498293_1_alg».proof.Proof.Gen.KernelIdeal.Points
import proofs.«179186_j20684562498293_1_alg».proof.Proof.Gen.KernelIdeal.Frame
import proofs.«179186_j20684562498293_1_alg».proof.Proof.Gen.ReferenceIdeal
import proofs.«179186_j20684562498293_1_alg».proof.Proof.Gen.ReferenceIdeal.Run
import proofs.«179186_j20684562498293_1_alg».proof.Proof.Gen.Pre_finite_inputs
import proofs.«179186_j20684562498293_1_alg».proof.Proof.KernelRun
import proofs.«179186_j20684562498293_1_alg».proof.Proof.KernelValue
import proofs.«179186_j20684562498293_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The idealized reference is host operations only: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both idealized programs end with the two layers of the arguments in
    their result arrays: the kernel's regions and host operations composed, and the reference's composed term, are
    that one function. -/
theorem algebraic : Cert.algebraic_KernelIdeal_ReferenceIdeal := by
  intro m ρ m' ρ' _ hagree
  refine ⟨fun c => Cert.KernelIdeal.Spec.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Composed.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, -, a2, -, -, a5, a6, a7, a8⟩ := hagree c
    rw [Cert.ReferenceIdeal.RefValue.result_eq m' c, a0, a2, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
